-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S8x4096 : Shape := ⟨2, ![8, 4096]⟩
abbrev S4096x8 : Shape := ⟨2, ![4096, 8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  main_v18

def fn {F : FTy → Type} [FloatOps F] (main_arg0 : FVec F S4x4096x4096 .f32) (main_arg1 : FVec F S4096x4096 .f32) (main_arg2 : FVec F S8x4096 .f32) (main_arg3 : FVec F S4096x8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_v13 main_v16
-- ==== Kernel.lean ====
abbrev S4x4096x4096 : Shape := ⟨3, ![4, 4096, 4096]⟩
abbrev S4096x4096 : Shape := ⟨2, ![4096, 4096]⟩
abbrev S8x4096 : Shape := ⟨2, ![8, 4096]⟩
abbrev S4096x8 : Shape := ⟨2, ![4096, 8]⟩
abbrev S16384x4096 : Shape := ⟨2, ![16384, 4096]⟩
abbrev S16384x8 : Shape := ⟨2, ![16384, 8]⟩
abbrev S2048x512 : Shape := ⟨2, ![2048, 512]⟩
abbrev S512x1024 : Shape := ⟨2, ![512, 1024]⟩
abbrev S2048x8 : Shape := ⟨2, ![2048, 8]⟩
abbrev S8x1024 : Shape := ⟨2, ![8, 1024]⟩
abbrev S2048x1024 : Shape := ⟨2, ![2048, 1024]⟩

abbrev nBuf : Space → Nat
  | .hbm => 14
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S16384x4096, .f32⟩
  | .hbm, ⟨5, _⟩ => ⟨S16384x8, .f32⟩
  | .hbm, ⟨6, _⟩ => ⟨S16384x4096, .bf16⟩
  | .hbm, ⟨7, _⟩ => ⟨S4096x4096, .f32⟩
  | .hbm, ⟨8, _⟩ => ⟨S4096x4096, .bf16⟩
  | .hbm, ⟨9, _⟩ => ⟨S8x4096, .f32⟩
  | .hbm, ⟨10, _⟩ => ⟨S8x4096, .bf16⟩
  | .hbm, ⟨11, _⟩ => ⟨S16384x8, .bf16⟩
  | .hbm, ⟨12, _⟩ => ⟨S16384x4096, .f32⟩
  | .hbm, ⟨13, _⟩ => ⟨S4x4096x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x8, .bf16⟩
  | .local _ .vmem, ⟨5, _⟩ => ⟨S2048x8, .bf16⟩
  | .local _ .vmem, ⟨6, _⟩ => ⟨S8x1024, .bf16⟩
  | .local _ .vmem, ⟨7, _⟩ => ⟨S8x1024, .bf16⟩
  | .local _ .vmem, ⟨8, _⟩ => ⟨S2048x1024, .f32⟩
  | .local _ .vmem, ⟨9, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x4096x4096_S16384x4096 : S4x4096x4096.ShapeCasts S16384x4096
  bitsLt_bf16_f32 : FTy.bits .bf16 < FTy.bits .f32
  transposes_S4096x4096_S4096x4096_1_0 : S4096x4096.Transposes [1, 0] S4096x4096
  transposes_S4096x8_S8x4096_1_0 : S4096x8.Transposes [1, 0] S8x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S16384x4096_S4x4096x4096 : S16384x4096.ShapeCasts S4x4096x4096
  dot_S16384x4096_S8x4096_S16384x8_1_1_0_0_n_n_wf : DotDims.WF S16384x4096 S8x4096 S16384x8 [1] [1] [0] [0] [] []
  dot_S2048x512_S512x1024_S2048x1024_1_0_0_1_n_n_wf : DotDims.WF S2048x512 S512x1024 S2048x1024 [1] [0] [0] [1] [] []
  dot_S2048x8_S8x1024_S2048x1024_1_0_0_1_n_n_wf : DotDims.WF S2048x8 S8x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .bf16 = 32 ∨ (Rect.block (s := S16384x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x8.size a ≤ S16384x8.size a
  hwx0_2 : ∀ i : grid0.Coords, EltTy.bits .bf16 = 32 ∨ (Rect.block (s := S16384x8) S2048x8.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x4096.size a
  hwx0_3 : ∀ i : grid0.Coords, EltTy.bits .bf16 = 32 ∨ (Rect.block (s := S8x4096) S8x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x4096.size a
  hwx0_4 : ∀ i : grid0.Coords, EltTy.bits .f32 = 32 ∨ (Rect.block (s := S16384x4096) S2048x1024.size (cc0_transform_4 i) (hinb0_4 i)).WholeWords (EltTy.packing .f32)

variable [Facts₀]

def dot_S16384x4096_S8x4096_S16384x8_1_1_0_0_n_n : DotDims S16384x4096 S8x4096 S16384x8 where
  lhsContracting := [1]
  rhsContracting := [1]
  lhsNonContracting := [0]
  rhsNonContracting := [0]
  lhsBatch := []
  rhsBatch := []
  wf := dot_S16384x4096_S8x4096_S16384x8_1_1_0_0_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S8x4096 : Shape := ⟨2, ![8, 4096]⟩
abbrev S4096x8 : Shape := ⟨2, ![4096, 8]⟩
abbrev S4x4096x8 : Shape := ⟨3, ![4, 4096, 8]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S8x4096, .f32⟩
  | .hbm, ⟨3, _⟩ => ⟨S4096x8, .f32⟩
  | .hbm, ⟨4, _⟩ => ⟨S4x4096x4096, .f32⟩
  | .hbm, ⟨5, _⟩ => ⟨S4x4096x8, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S8x4096_S4x4096x8_2_1_01_0_n_n_wf : DotDims.WF S4x4096x4096 S8x4096 S4x4096x8 [2] [1] [0, 1] [0] [] []
  dot_S4x4096x8_S4096x8_S4x4096x4096_2_1_01_0_n_n_wf : DotDims.WF S4x4096x8 S4096x8 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S8x4096_S4x4096x8_2_1_01_0_n_n : DotDims S4x4096x4096 S8x4096 S4x4096x8 where
  lhsContracting := [2]
  rhsContracting := [1]
  lhsNonContracting := [0, 1]
  rhsNonContracting := [0]
  lhsBatch := []
  rhsBatch := []
  wf := dot_S4x4096x4096_S8x4096_S4x4096x8_2_1_01_0_n_n_wf
def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf

class Facts : Prop extends Facts₀ where

variable [Facts]
-- ==== Proof.LibSumRuns.lean ====
/-
  Two small tools for a matrix product taken in blocks along the contracted axis.

  `sum_runs`: in any commutative additive monoid, a sum over `m·n` consecutive naturals is the sum over `m` runs of
  `n` — `∑ s < m, ∑ d' < n, F (s·n + d') = ∑ d < m·n, F d` — so the partial products of the runs of a contraction add
  up to the whole contraction.  On the extended reals this asks no finiteness: only commutativity and associativity
  of addition are used.

  `rd2`: a two-dimensional array read at natural coordinates (its entry inside the array, zero outside), so that the
  entry of a block at a grid point can be named by plain arithmetic on the point's number, with the bounds supplied
  only where the entry is finally read (`rd2_of_lt`).
-/
import Idealize.ShloMosaic.Lib.ValueIdx
import Idealize.ShloMosaic.PureOps.Ideal.Laws

noncomputable section

namespace Cert.SumRuns

open Idealize.ShloMosaic Idealize.ShloMosaic.ValueIdx

/-- A sum over `m·n` consecutive naturals, regrouped as `m` runs of `n`. -/
theorem sum_runs {β : Type*} [AddCommMonoid β] (m n : ℕ) (F : ℕ → β) :
    ∑ s ∈ Finset.range m, ∑ d' : Fin n, F (s * n + d'.val) = ∑ d : Fin (m * n), F d.val := by
  rw [Finset.sum_range, ← Equiv.sum_comp finProdFinEquiv, Fintype.sum_prod_type]
  refine Finset.sum_congr rfl fun s _ => Finset.sum_congr rfl fun d' _ => ?_
  refine congrArg F ?_
  show s.val * n + d'.val = d'.val + n * s.val
  rw [Nat.mul_comm, Nat.add_comm]

/-- A two-dimensional array read at natural coordinates: its entry inside the array, zero outside. -/
def rd2 {n0 n1 : ℕ} (f : (⟨2, ![n0, n1]⟩ : Shape).Idx → EReal) (r c : ℕ) : EReal :=
  if h : r < n0 ∧ c < n1 then f (ix2 ⟨r, h.1⟩ ⟨c, h.2⟩) else 0

/-- Inside the array, `rd2` is the array's entry. -/
theorem rd2_of_lt {n0 n1 : ℕ} (f : (⟨2, ![n0, n1]⟩ : Shape).Idx → EReal) (r c : ℕ) (h0 : r < n0) (h1 : c < n1) :
    rd2 f r c = f (ix2 ⟨r, h0⟩ ⟨c, h1⟩) := dif_pos ⟨h0, h1⟩

end Cert.SumRuns

end
-- ==== Proof.Spec.lean ====
/-
  The specification of a linear layer with a low-rank update, on the extended reals.

  For an activation `x[b, s, d]`, a frozen weight `w[o, d]`, a down-projection `a[k, d]` of rank 8 and an
  up-projection `b[o, k]`, the layer's output at `(b, s, o)` is

      (∑ d, x[b,s,d] · w[o,d])  +  (∑ k, (∑ d, x[b,s,d] · a[k,d]) · b[o,k]) · 2.

  `Gat` states it at coordinates, `G` as a function of the index.  `out2` is the same number written over the
  two-dimensional operands a blocked matrix product works on (the rows `(b, s)` flattened to `4096·b + s`, the weight
  and the up-projection transposed, the down-projection `x·aᵀ` already taken): `out2_eq_Gat` says so.

  The one law of sums the blocked product needs is regrouping a sum into runs (`sum_runs`), and a block's entry is
  named by reading an array at natural coordinates (`rd2`): both are in the module LibSumRuns and re-exported here.
-/
import proofs.«140877_j86011015070181_2_alg».proof.Proof.LibSumRuns
import Idealize.ShloMosaic.Lib.ValueIdx
import Idealize.ShloMosaic.PureOps.Ideal.Laws

noncomputable section

namespace Cert.Lora

open Idealize.ShloMosaic Idealize.ShloMosaic.ValueIdx

/-- The scale `alpha / rank = 2`, kept as the f32 word both programs print (never evaluated). -/
abbrev two : EReal := Ideal.ofBits .f32 0x40000000#32

/-- The layer's output at `(bb, s, o)`. -/
def Gat (x : (⟨3, ![4, 4096, 4096]⟩ : Shape).Idx → EReal) (w : (⟨2, ![4096, 4096]⟩ : Shape).Idx → EReal)
    (a : (⟨2, ![8, 4096]⟩ : Shape).Idx → EReal) (b : (⟨2, ![4096, 8]⟩ : Shape).Idx → EReal)
    (bb : Fin 4) (s : Fin 4096) (o : Fin 4096) : EReal :=
  (∑ d : Fin 4096, x (ix3 bb s d) * w (ix2 o d))
    + (∑ k : Fin 8, (∑ d : Fin 4096, x (ix3 bb s d) * a (ix2 k d)) * b (ix2 o k)) * two

/-- The layer's output as a function of the index. -/
def G (x : (⟨3, ![4, 4096, 4096]⟩ : Shape).Idx → EReal) (w : (⟨2, ![4096, 4096]⟩ : Shape).Idx → EReal)
    (a : (⟨2, ![8, 4096]⟩ : Shape).Idx → EReal) (b : (⟨2, ![4096, 8]⟩ : Shape).Idx → EReal) :
    (⟨3, ![4, 4096, 4096]⟩ : Shape).Idx → EReal :=
  fun i => Gat x w a b (i 0) (i 1) (i 2)

theorem G_ix3 (x : (⟨3, ![4, 4096, 4096]⟩ : Shape).Idx → EReal) (w : (⟨2, ![4096, 4096]⟩ : Shape).Idx → EReal)
    (a : (⟨2, ![8, 4096]⟩ : Shape).Idx → EReal) (b : (⟨2, ![4096, 8]⟩ : Shape).Idx → EReal)
    (bb : Fin 4) (s : Fin 4096) (o : Fin 4096) : G x w a b (ix3 bb s o) = Gat x w a b bb s o := rfl

/-- The same output over two-dimensional operands: row `r` of the flattened activation `X`, the transposed weight
    `Wt[d, o]`, the down-projected activation `Lw[r, k]` and the transposed up-projection `Bt[k, o]`. -/
def out2 (X : (⟨2, ![16384, 4096]⟩ : Shape).Idx → EReal) (Wt : (⟨2, ![4096, 4096]⟩ : Shape).Idx → EReal)
    (Lw : (⟨2, ![16384, 8]⟩ : Shape).Idx → EReal) (Bt : (⟨2, ![8, 4096]⟩ : Shape).Idx → EReal)
    (r : Fin 16384) (o : Fin 4096) : EReal :=
  (∑ d : Fin 4096, X (ix2 r d) * Wt (ix2 d o)) + (∑ k : Fin 8, Lw (ix2 r k) * Bt (ix2 k o)) * two

/-- Row `4096·bb + s` of the flattened activation. -/
abbrev flatRow (bb : Fin 4) (s : Fin 4096) : Fin 16384 :=
  ⟨4096 * bb.val + s.val, by have := bb.isLt; have := s.isLt; omega⟩

/-- When the two-dimensional operands are the flattening, the transposes and the down-projection of the arguments,
    `out2` at row `4096·bb + s` is the layer's output at `(bb, s, o)`. -/
theorem out2_eq_Gat (x : (⟨3, ![4, 4096, 4096]⟩ : Shape).Idx → EReal) (w : (⟨2, ![4096, 4096]⟩ : Shape).Idx → EReal)
    (a : (⟨2, ![8, 4096]⟩ : Shape).Idx → EReal) (b : (⟨2, ![4096, 8]⟩ : Shape).Idx → EReal)
    (X : (⟨2, ![16384, 4096]⟩ : Shape).Idx → EReal) (Wt : (⟨2, ![4096, 4096]⟩ : Shape).Idx → EReal)
    (Lw : (⟨2, ![16384, 8]⟩ : Shape).Idx → EReal) (Bt : (⟨2, ![8, 4096]⟩ : Shape).Idx → EReal)
    (hX : ∀ (bb : Fin 4) (s : Fin 4096) (d : Fin 4096), X (ix2 (flatRow bb s) d) = x (ix3 bb s d))
    (hW : ∀ (d o : Fin 4096), Wt (ix2 d o) = w (ix2 o d))
    (hL : ∀ (bb : Fin 4) (s : Fin 4096) (k : Fin 8),
      Lw (ix2 (flatRow bb s) k) = ∑ d : Fin 4096, x (ix3 bb s d) * a (ix2 k d))
    (hB : ∀ (k : Fin 8) (o : Fin 4096), Bt (ix2 k o) = b (ix2 o k))
    (bb : Fin 4) (s : Fin 4096) (o : Fin 4096) :
    out2 X Wt Lw Bt (flatRow bb s) o = Gat x w a b bb s o := by
  unfold out2 Gat
  simp only [hX, hW, hL, hB]

export Cert.SumRuns (sum_runs rd2 rd2_of_lt)

end Cert.Lora

end
-- ==== Proof.RefIsG.lean ====
/-
  The reference, read at an index, is the specification.

  The reference takes three contractions on the host — `x·wᵀ` over the feature axis, `x·aᵀ` over the feature axis,
  and that result times `bᵀ` over the rank axis — scales the last by the constant 2 and adds it to the first.  Read one
  operation at a time at the index `(bb, s, o)`, each contraction is a finite sum of products on the extended reals,
  and the term is `Gat` literally: the operand indices the contractions read are `(bb, s, d)` and `(o, d)`,
  `(bb, s, k)` and `(o, k)`, `(bb, s, d)` and `(k, d)`.
-/
import proofs.«140877_j86011015070181_2_alg».proof.Proof.Gen.ReferenceIdeal.Read
import proofs.«140877_j86011015070181_2_alg».proof.Proof.Spec

noncomputable section

namespace Cert.Lora.Ref

open Cert.ReferenceIdeal Cert.ReferenceIdeal.Read Idealize.ShloMosaic Idealize.ShloMosaic.ValueIdx Cert.Lora

theorem l0 (bb : Fin 4) (s o k : Fin 4096) : lidx_main_v0 (ix3 bb s o) k = ix3 bb s k :=
  funext fun a => Fin.ext (by match a with | ⟨0, _⟩ => rfl | ⟨1, _⟩ => rfl | ⟨2, _⟩ => rfl)
theorem r0 (bb : Fin 4) (s o k : Fin 4096) : ridx_main_v0 (ix3 bb s o) k = ix2 o k :=
  funext fun a => Fin.ext (by match a with | ⟨0, _⟩ => rfl | ⟨1, _⟩ => rfl)
theorem l2 (bb : Fin 4) (s o : Fin 4096) (k : Fin 8) : lidx_main_v2 (ix3 bb s o) k = ix3 bb s k :=
  funext fun a => Fin.ext (by match a with | ⟨0, _⟩ => rfl | ⟨1, _⟩ => rfl | ⟨2, _⟩ => rfl)
theorem r2 (bb : Fin 4) (s o : Fin 4096) (k : Fin 8) : ridx_main_v2 (ix3 bb s o) k = ix2 o k :=
  funext fun a => Fin.ext (by match a with | ⟨0, _⟩ => rfl | ⟨1, _⟩ => rfl)
theorem l1 (bb : Fin 4) (s : Fin 4096) (k : Fin 8) (d : Fin 4096) : lidx_main_v1 (ix3 bb s k) d = ix3 bb s d :=
  funext fun a => Fin.ext (by match a with | ⟨0, _⟩ => rfl | ⟨1, _⟩ => rfl | ⟨2, _⟩ => rfl)
theorem r1 (bb : Fin 4) (s : Fin 4096) (k : Fin 8) (d : Fin 4096) : ridx_main_v1 (ix3 bb s k) d = ix2 k d :=
  funext fun a => Fin.ext (by match a with | ⟨0, _⟩ => rfl | ⟨1, _⟩ => rfl)

/-- The reference's result, as a function of its four arguments, is the specification. -/
theorem ref_eq_G (x : (⟨S4x4096x4096, .f32⟩ : BufTy).Contents (Elt Ideal)) (w : (⟨S4096x4096, .f32⟩ : BufTy).Contents (Elt Ideal))
    (a : (⟨S8x4096, .f32⟩ : BufTy).Contents (Elt Ideal)) (b : (⟨S4096x8, .f32⟩ : BufTy).Contents (Elt Ideal)) :
    val_main_v5 (F := Ideal) x w a b = G x w a b := by
  funext i
  obtain ⟨bb, s, o, rfl⟩ : ∃ (bb : Fin 4) (s : Fin 4096) (o : Fin 4096), i = ix3 bb s o := ⟨i 0, i 1, i 2, eq_ix3 i⟩
  rw [G_ix3, val_main_v5_apply, val_main_v0_apply, val_main_v4_apply, val_main_v2_apply, val_main_v3_apply,
    val_main_cst_apply]
  simp only [val_main_v1_apply, l0, r0, l2, r2, l1, r1, Ideal.addf_def, Ideal.mulf_def, Ideal.ofBits_def]
  rfl

end Cert.Lora.Ref

end
-- ==== Proof.Pieces.lean ====
/-
  What each control case of the body leaves in the output block's staging buffer, as a value.

  The body branches twice on the position `k` along the contraction axis.  In the first case (`k = 0`) it stores the
  zero block, reads it back and stores the accumulation step on it; in the middle case it stores one accumulation
  step on what the buffer held; in the last case (`k = 7`) it stores the accumulation step, reads that back and
  stores the low-rank term on it.  Every store covers the whole buffer and every load reads a whole buffer, so what a
  case leaves is the last store's value with each read-back replaced by the store it reads:

      first:   step (zero) x w            middle:   step acc x w            last:   lowrank l b (step acc x w)

  with `step` and `lowrank` the body's stored values as functions of what it loaded (any float semantics).
-/
import proofs.«140877_j86011015070181_2_alg».proof.Proof.Gen.KernelIdeal.Frame
import Idealize.ShloMosaic.Lib.Pipeline.Value
import Idealize.ShloMosaic.Lib.Tactic

noncomputable section

namespace Cert.Lora.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The middle case: one accumulation step on the running block. -/
theorem out_B (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x8 .bf16) (harg5 : arg5.IsWhole) (arg6 : Memref sig .tc .vmem S8x1024 .bf16) (harg6 : arg6.IsWhole) (arg7 : Memref sig .tc .vmem S2048x1024 .f32) (harg7 : arg7.IsWhole) (hc0 : ¬cond0_0 i) (hc1 : ¬cond0_1 i)
    (x0 : Vec F S2048x512 .bf16) (x1 : Vec F S512x1024 .bf16) (x2 : Vec F S2048x8 .bf16) (x3 : Vec F S8x1024 .bf16) (xo4 : Vec F S2048x1024 .f32) :
    out0_B_4 c i arg3 harg3 arg4 harg4 arg5 harg5 arg6 harg6 arg7 harg7 hc0 hc1 x0 x1 x2 x3 xo4 = k0_pay2 xo4 x0 x1 := by
  unfold out0_B_4
  rw [View.read_writes_eq_canon _ _ _ (cover0_B_4 c i arg3 harg3 arg4 harg4 arg5 harg5 arg6 harg6 arg7 harg7 hc0 hc1 x0 x1 x2 x3 xo4)]
  unfold kernelRun0_B
  dsimp only
  rw [View.canon_unit_zero hz]
  simp only [View.readAt_eq_ld, harg3.read_unread, harg4.read_unread, harg7.read_unread, View.ld_unit_zero (S := S2048x1024) hz, View.ld_unit_zero (S := S2048x512) hz, View.ld_unit_zero (S := S512x1024) hz]

/-- The first case: the accumulation step on the zero block just stored. -/
theorem out_A (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x8 .bf16) (harg5 : arg5.IsWhole) (arg6 : Memref sig .tc .vmem S8x1024 .bf16) (harg6 : arg6.IsWhole) (arg7 : Memref sig .tc .vmem S2048x1024 .f32) (harg7 : arg7.IsWhole) (hc0 : cond0_0 i) (hc1 : ¬cond0_1 i)
    (x0 : Vec F S2048x512 .bf16) (x1 : Vec F S512x1024 .bf16) (x2 : Vec F S2048x8 .bf16) (x3 : Vec F S8x1024 .bf16) :
    out0_A_4 c i arg3 harg3 arg4 harg4 arg5 harg5 arg6 harg6 arg7 harg7 hc0 hc1 x0 x1 x2 x3 = k0_pay2 (k0_pay1 (F := F)) x0 x1 := by
  unfold out0_A_4
  rw [View.read_writes_eq_canon _ _ _ (cover0_A_4 c i arg3 harg3 arg4 harg4 arg5 harg5 arg6 harg6 arg7 harg7 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x1024) hz, View.ld_unit_zero (S := S2048x512) hz, View.ld_unit_zero (S := S512x1024) hz]

/-- The last case: the low-rank term on the accumulation step just stored. -/
theorem out_C (c : Dev nD) (i : grid0.Coords) (arg3 : Memref sig .tc .vmem S2048x512 .bf16) (harg3 : arg3.IsWhole) (arg4 : Memref sig .tc .vmem S512x1024 .bf16) (harg4 : arg4.IsWhole) (arg5 : Memref sig .tc .vmem S2048x8 .bf16) (harg5 : arg5.IsWhole) (arg6 : Memref sig .tc .vmem S8x1024 .bf16) (harg6 : arg6.IsWhole) (arg7 : Memref sig .tc .vmem S2048x1024 .f32) (harg7 : arg7.IsWhole) (hc0 : ¬cond0_0 i) (hc1 : cond0_1 i)
    (x0 : Vec F S2048x512 .bf16) (x1 : Vec F S512x1024 .bf16) (x2 : Vec F S2048x8 .bf16) (x3 : Vec F S8x1024 .bf16) (xo4 : Vec F S2048x1024 .f32) :
    out0_C_4 c i arg3 harg3 arg4 harg4 arg5 harg5 arg6 harg6 arg7 harg7 hc0 hc1 x0 x1 x2 x3 xo4 = k0_pay3 x2 x3 (k0_pay2 xo4 x0 x1) := by
  unfold out0_C_4
  rw [View.read_writes_eq_canon _ _ _ (cover0_C_4 c i arg3 harg3 arg4 harg4 arg5 harg5 arg6 harg6 arg7 harg7 hc0 hc1 x0 x1 x2 x3 xo4)]
  unfold kernelRun0_C
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread, View.ld_unit_zero (S := S2048x1024) hz, View.ld_unit_zero (S := S2048x512) hz, View.ld_unit_zero (S := S512x1024) hz, View.ld_unit_zero (S := S2048x8) hz, View.ld_unit_zero (S := S8x1024) hz]

end Cert.Lora.Pieces

end
-- ==== Proof.Payload.lean ====
/-
  The kernel body's arithmetic, read at one entry of the output block, on the extended reals.

  The body holds a 2048×1024 accumulator block.  At the first step along the contraction axis it stores zero; at every
  step it adds the product of a 2048×512 block of the activation and a 512×1024 block of the transposed weight; at the
  last step it also adds twice the product of the 2048×8 down-projected block and the 8×1024 block of the transposed
  up-projection.  A block product into a zero accumulator is, entry by entry, the finite sum of the products over the
  contracted positions; a change of float format is the identity here, so nothing else is left of the three stored
  values than

      0,        acc[p,q] + ∑ d', l[p,d'] · r[d',q],        acc[p,q] + (∑ k, l[p,k] · r[k,q]) · 2 .
-/
import proofs.«140877_j86011015070181_2_alg».proof.Proof.Gen.KernelIdeal.Skeleton
import proofs.«140877_j86011015070181_2_alg».proof.Proof.Spec
import Idealize.ShloMosaic.Lib.Pipeline.Value
import Idealize.ShloMosaic.Lib.ValueIdx
import Idealize.ShloMosaic.PureOps.Ideal.Laws

noncomputable section

namespace Cert.Lora.Pay

open Cert.KernelIdeal Cert.KernelIdeal.Gen Idealize.ShloMosaic Idealize.ShloMosaic.ValueIdx Cert.Lora

theorem xw_lhs0 (i : S2048x1024.Idx) (q : dot_S2048x512_S512x1024_S2048x1024_1_0_0_1_n_n.contr.Idx) : (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem xw_lhs1 (i : S2048x1024.Idx) (q : dot_S2048x512_S512x1024_S2048x1024_1_0_0_1_n_n.contr.Idx) : (dot_S2048x512_S512x1024_S2048x1024_1_0_0_1_n_n.lhsIdx i q 1).val = (q ⟨0, by decide⟩).val :=
  dot_S2048x512_S512x1024_S2048x1024_1_0_0_1_n_n.lhsIdx_val_of_single rfl i q
theorem xw_rhs0 (i : S2048x1024.Idx) (q : dot_S2048x512_S512x1024_S2048x1024_1_0_0_1_n_n.contr.Idx) : (dot_S2048x512_S512x1024_S2048x1024_1_0_0_1_n_n.rhsIdx i q 0).val = (q ⟨0, by decide⟩).val :=
  dot_S2048x512_S512x1024_S2048x1024_1_0_0_1_n_n.rhsIdx_val_of_single rfl i q
theorem xw_rhs1 (i : S2048x1024.Idx) (q : dot_S2048x512_S512x1024_S2048x1024_1_0_0_1_n_n.contr.Idx) : (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The block product into a zero accumulator, at `(p, q)`: the sum over the 512 contracted positions. -/
theorem xw_apply (l : FVec Ideal S2048x512 .bf16) (r : FVec Ideal S512x1024 .bf16) (p : Fin 2048) (q : Fin 1024) :
    FloatOps.matmul dot_S2048x512_S512x1024_S2048x1024_1_0_0_1_n_n none l r (constant (F := Ideal) S2048x1024 .f32 0x00000000#32) (ix2 p q)
      = ∑ k : Fin 512, l (ix2 p k) * r (ix2 k q) := by
  rw [Ideal.matmul_constant_zero_apply, ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p q) ((contrEquiv1 dot_S2048x512_S512x1024_S2048x1024_1_0_0_1_n_n 512 rfl rfl).symm k) = ix2 p k := funext fun a => Fin.ext (by
    match a with
    | ⟨0, _⟩ => exact xw_lhs0 _ _
    | ⟨1, _⟩ => exact (xw_lhs1 _ _).trans hk)
  have er : dot_S2048x512_S512x1024_S2048x1024_1_0_0_1_n_n.rhsIdx (ix2 p q) ((contrEquiv1 dot_S2048x512_S512x1024_S2048x1024_1_0_0_1_n_n 512 rfl rfl).symm k) = ix2 k q := funext fun a => Fin.ext (by
    match a with
    | ⟨0, _⟩ => exact (xw_rhs0 _ _).trans hk
    | ⟨1, _⟩ => exact xw_rhs1 _ _)
  rw [el, er]

theorem lb_lhs0 (i : S2048x1024.Idx) (q : dot_S2048x8_S8x1024_S2048x1024_1_0_0_1_n_n.contr.Idx) : (dot_S2048x8_S8x1024_S2048x1024_1_0_0_1_n_n.lhsIdx i q 0).val = (i 0).val := by
  unfold DotDims.lhsIdx
  rw [dif_neg (show ¬(0 : Fin S2048x8.rank) ∈ dot_S2048x8_S8x1024_S2048x1024_1_0_0_1_n_n.lhsBatch by decide), dif_pos (show (0 : Fin S2048x8.rank) ∈ dot_S2048x8_S8x1024_S2048x1024_1_0_0_1_n_n.lhsNonContracting by decide)]
  rfl
theorem lb_lhs1 (i : S2048x1024.Idx) (q : dot_S2048x8_S8x1024_S2048x1024_1_0_0_1_n_n.contr.Idx) : (dot_S2048x8_S8x1024_S2048x1024_1_0_0_1_n_n.lhsIdx i q 1).val = (q ⟨0, by decide⟩).val :=
  dot_S2048x8_S8x1024_S2048x1024_1_0_0_1_n_n.lhsIdx_val_of_single rfl i q
theorem lb_rhs0 (i : S2048x1024.Idx) (q : dot_S2048x8_S8x1024_S2048x1024_1_0_0_1_n_n.contr.Idx) : (dot_S2048x8_S8x1024_S2048x1024_1_0_0_1_n_n.rhsIdx i q 0).val = (q ⟨0, by decide⟩).val :=
  dot_S2048x8_S8x1024_S2048x1024_1_0_0_1_n_n.rhsIdx_val_of_single rfl i q
theorem lb_rhs1 (i : S2048x1024.Idx) (q : dot_S2048x8_S8x1024_S2048x1024_1_0_0_1_n_n.contr.Idx) : (dot_S2048x8_S8x1024_S2048x1024_1_0_0_1_n_n.rhsIdx i q 1).val = (i 1).val := by
  unfold DotDims.rhsIdx
  rw [dif_neg (show ¬(1 : Fin S8x1024.rank) ∈ dot_S2048x8_S8x1024_S2048x1024_1_0_0_1_n_n.rhsBatch by decide), dif_pos (show (1 : Fin S8x1024.rank) ∈ dot_S2048x8_S8x1024_S2048x1024_1_0_0_1_n_n.rhsNonContracting by decide)]
  rfl

/-- The block product into a zero accumulator, at `(p, q)`: the sum over the 8 contracted positions. -/
theorem lb_apply (l : FVec Ideal S2048x8 .bf16) (r : FVec Ideal S8x1024 .bf16) (p : Fin 2048) (q : Fin 1024) :
    FloatOps.matmul dot_S2048x8_S8x1024_S2048x1024_1_0_0_1_n_n none l r (constant (F := Ideal) S2048x1024 .f32 0x00000000#32) (ix2 p q)
      = ∑ k : Fin 8, l (ix2 p k) * r (ix2 k q) := by
  rw [Ideal.matmul_constant_zero_apply, ← Equiv.sum_comp (contrEquiv1 dot_S2048x8_S8x1024_S2048x1024_1_0_0_1_n_n 8 rfl rfl).symm]
  refine Finset.sum_congr rfl fun k _ => ?_
  have hk := contrEquiv1_symm_val dot_S2048x8_S8x1024_S2048x1024_1_0_0_1_n_n 8 rfl rfl k
  have el : dot_S2048x8_S8x1024_S2048x1024_1_0_0_1_n_n.lhsIdx (ix2 p q) ((contrEquiv1 dot_S2048x8_S8x1024_S2048x1024_1_0_0_1_n_n 8 rfl rfl).symm k) = ix2 p k := funext fun a => Fin.ext (by
    match a with
    | ⟨0, _⟩ => exact lb_lhs0 _ _
    | ⟨1, _⟩ => exact (lb_lhs1 _ _).trans hk)
  have er : dot_S2048x8_S8x1024_S2048x1024_1_0_0_1_n_n.rhsIdx (ix2 p q) ((contrEquiv1 dot_S2048x8_S8x1024_S2048x1024_1_0_0_1_n_n 8 rfl rfl).symm k) = ix2 k q := funext fun a => Fin.ext (by
    match a with
    | ⟨0, _⟩ => exact (lb_rhs0 _ _).trans hk
    | ⟨1, _⟩ => exact lb_rhs1 _ _)
  rw [el, er]

/-- The reset value is zero at every entry. -/
theorem pay1_apply (i : S2048x1024.Idx) : k0_pay1 (F := Ideal) i = 0 := by
  unfold k0_pay1
  exact Ideal.ofBits_zero_f32

/-- One accumulation step at `(p, q)`: the accumulator's entry plus the block product's. -/
theorem pay2_apply (acc : Vec Ideal S2048x1024 .f32) (l : Vec Ideal S2048x512 .bf16) (r : Vec Ideal S512x1024 .bf16)
    (p : Fin 2048) (q : Fin 1024) :
    k0_pay2 (F := Ideal) acc l r (ix2 p q) = acc (ix2 p q) + ∑ k : Fin 512, l (ix2 p k) * r (ix2 k q) := by
  unfold k0_pay2
  simp only [shapeCast_self]
  exact congrArg (acc (ix2 p q) + ·) (xw_apply l r p q)

/-- The last step's low-rank term at `(p, q)`: the accumulator's entry plus twice the rank-8 product's. -/
theorem pay3_apply (l : Vec Ideal S2048x8 .bf16) (r : Vec Ideal S8x1024 .bf16) (acc : Vec Ideal S2048x1024 .f32)
    (p : Fin 2048) (q : Fin 1024) :
    k0_pay3 (F := Ideal) l r acc (ix2 p q) = acc (ix2 p q) + (∑ k : Fin 8, l (ix2 p k) * r (ix2 k q)) * two := by
  unfold k0_pay3
  simp only [shapeCast_self]
  exact congrArg (fun z => acc (ix2 p q) + z * two) (lb_apply l r p q)

end Cert.Lora.Pay

end
-- ==== Proof.Blocks.lean ====
/-
  Where the blocks of the five operands sit, at a grid point named by its number.

  The grid has 8 × 4 × 8 points, numbered row-major, so point `t` has row-block `t / 32`, column-block `t / 8 % 4`
  and contraction step `t % 8`.  At `t` the activation's block is rows `2048·(t/32) …` and columns `512·(t%8) …`;
  the transposed weight's is rows `512·(t%8) …` and columns `1024·(t/8%4) …`; the down-projected activation's is rows
  `2048·(t/32) …` (all 8 columns); the transposed up-projection's is columns `1024·(t/8%4) …` (all 8 rows); the
  output's is rows `2048·(t/32) …`, columns `1024·(t/8%4) …`.  An element of a block sits in its array at block index
  times block size plus its own coordinate; the block indices are decided once over the 256 points.
-/
import proofs.«140877_j86011015070181_2_alg».proof.Proof.Gen.KernelIdeal.Frame.Runs
import proofs.«140877_j86011015070181_2_alg».proof.Proof.Spec
import Idealize.ShloMosaic.Lib.Pipeline.Value

noncomputable section

namespace Cert.Lora.Blocks

open Cert.KernelIdeal Cert.KernelIdeal.Gen Idealize.ShloMosaic Idealize.ShloMosaic.TcCoe Idealize.SL.Sem
open Idealize.ShloMosaic.ValueIdx Cert.Lora

/-- Where window 0's block sits at point `t`: block index `(t.val / 32, t.val % 8)`. -/
theorem idx0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)

/-- Window 0's block at point `t`, read from array contents `f` at `(p, q)`: the array's entry at
    `(2048·(t.val / 32) + p, 512·(t.val % 8) + q)`. -/
theorem read_blk0 (c : Dev nD) (f : S16384x4096.Idx → EReal) (t : Fin cfg0.N) (p : Fin 2048) (q : Fin 512) :
    ((cfg0.win 0).blk t).view.read (Elt Ideal) (f : Buf (Elt Ideal) ((c : Thread nD τ).loc main_v2)) (ix2 p q)
      = rd2 f ((t.val / 32) * 2048 + p.val) ((t.val % 8) * 512 + q.val) := by
  have hN : t.val < 256 := lt_of_lt_of_eq t.isLt (show cfg0.N = 256 from N_0)
  have hp := p.isLt
  have hq := q.isLt
  have hi := idx0 t
  rw [rd2_of_lt f _ _ (by omega) (by omega), View.read_apply]
  show f _ = f _
  congr 1
  funext a
  apply Fin.ext
  match a with
  | ⟨0, _⟩ => show win0_0.index t 0 * 2048 + 1 * p.val = (t.val / 32) * 2048 + p.val; rw [hi.1]; omega
  | ⟨1, _⟩ => show win0_0.index t 1 * 512 + 1 * q.val = (t.val % 8) * 512 + q.val; rw [hi.2]; omega

/-- Where window 1's block sits at point `t`: block index `(t.val % 8, t.val / 8 % 4)`. -/
theorem idx1 : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)

/-- Window 1's block at point `t`, read from array contents `f` at `(p, q)`: the array's entry at
    `(512·(t.val % 8) + p, 1024·(t.val / 8 % 4) + q)`. -/
theorem read_blk1 (c : Dev nD) (f : S4096x4096.Idx → EReal) (t : Fin cfg0.N) (p : Fin 512) (q : Fin 1024) :
    ((cfg0.win 1).blk t).view.read (Elt Ideal) (f : Buf (Elt Ideal) ((c : Thread nD τ).loc main_v4)) (ix2 p q)
      = rd2 f ((t.val % 8) * 512 + p.val) ((t.val / 8 % 4) * 1024 + q.val) := by
  have hN : t.val < 256 := lt_of_lt_of_eq t.isLt (show cfg0.N = 256 from N_0)
  have hp := p.isLt
  have hq := q.isLt
  have hi := idx1 t
  rw [rd2_of_lt f _ _ (by omega) (by omega), View.read_apply]
  show f _ = f _
  congr 1
  funext a
  apply Fin.ext
  match a with
  | ⟨0, _⟩ => show win0_1.index t 0 * 512 + 1 * p.val = (t.val % 8) * 512 + p.val; rw [hi.1]; omega
  | ⟨1, _⟩ => show win0_1.index t 1 * 1024 + 1 * q.val = (t.val / 8 % 4) * 1024 + q.val; rw [hi.2]; omega

/-- Where window 2's block sits at point `t`: block index `(t.val / 32, 0)`. -/
theorem idx2 : ∀ t : Fin cfg0.N, win0_2.index t 0 = t.val / 32 ∧ win0_2.index t 1 = 0 :=
  (by decide +kernel : ∀ t : Fin grid0.N, win0_2.index t 0 = t.val / 32 ∧ win0_2.index t 1 = 0)

/-- Window 2's block at point `t`, read from array contents `f` at `(p, q)`: the array's entry at
    `(2048·(t.val / 32) + p, 8·(0) + q)`. -/
theorem read_blk2 (c : Dev nD) (f : S16384x8.Idx → EReal) (t : Fin cfg0.N) (p : Fin 2048) (q : Fin 8) :
    ((cfg0.win 2).blk t).view.read (Elt Ideal) (f : Buf (Elt Ideal) ((c : Thread nD τ).loc main_v7)) (ix2 p q)
      = rd2 f ((t.val / 32) * 2048 + p.val) ((0) * 8 + q.val) := by
  have hN : t.val < 256 := lt_of_lt_of_eq t.isLt (show cfg0.N = 256 from N_0)
  have hp := p.isLt
  have hq := q.isLt
  have hi := idx2 t
  rw [rd2_of_lt f _ _ (by omega) (by omega), View.read_apply]
  show f _ = f _
  congr 1
  funext a
  apply Fin.ext
  match a with
  | ⟨0, _⟩ => show win0_2.index t 0 * 2048 + 1 * p.val = (t.val / 32) * 2048 + p.val; rw [hi.1]; omega
  | ⟨1, _⟩ => show win0_2.index t 1 * 8 + 1 * q.val = (0) * 8 + q.val; rw [hi.2]; omega

/-- Where window 3's block sits at point `t`: block index `(0, t.val / 8 % 4)`. -/
theorem idx3 : ∀ t : Fin cfg0.N, win0_3.index t 0 = 0 ∧ win0_3.index t 1 = t.val / 8 % 4 :=
  (by decide +kernel : ∀ t : Fin grid0.N, win0_3.index t 0 = 0 ∧ win0_3.index t 1 = t.val / 8 % 4)

/-- Window 3's block at point `t`, read from array contents `f` at `(p, q)`: the array's entry at
    `(8·(0) + p, 1024·(t.val / 8 % 4) + q)`. -/
theorem read_blk3 (c : Dev nD) (f : S8x4096.Idx → EReal) (t : Fin cfg0.N) (p : Fin 8) (q : Fin 1024) :
    ((cfg0.win 3).blk t).view.read (Elt Ideal) (f : Buf (Elt Ideal) ((c : Thread nD τ).loc main_v6)) (ix2 p q)
      = rd2 f ((0) * 8 + p.val) ((t.val / 8 % 4) * 1024 + q.val) := by
  have hN : t.val < 256 := lt_of_lt_of_eq t.isLt (show cfg0.N = 256 from N_0)
  have hp := p.isLt
  have hq := q.isLt
  have hi := idx3 t
  rw [rd2_of_lt f _ _ (by omega) (by omega), View.read_apply]
  show f _ = f _
  congr 1
  funext a
  apply Fin.ext
  match a with
  | ⟨0, _⟩ => show win0_3.index t 0 * 8 + 1 * p.val = (0) * 8 + p.val; rw [hi.1]; omega
  | ⟨1, _⟩ => show win0_3.index t 1 * 1024 + 1 * q.val = (t.val / 8 % 4) * 1024 + q.val; rw [hi.2]; omega

end Cert.Lora.Blocks

end
-- ==== Proof.Fold.lean ====
/-
  What the output block's staging buffer holds when it is written back: the whole contraction.

  Along the grid's last axis (8 steps) the buffer is reset at step 0, gains one block product at each step, and gains
  the low-rank term at step 7, after which it is written back.  The generated frame states the buffer's contents after
  each point by recursion on the point's number; here that recursion is read as a fold over one run of 8 consecutive
  points (the library's fold over a run, `accAt`), and the fold as a sum: after step `j ≤ 6` the buffer holds
  `0 + ∑ s ≤ j` of the steps' block products, and after step 7 that sum over all eight steps plus the low-rank term.

  The eight block products of 512 contracted positions each are one product over 4096 positions (`sum_runs`): the
  only law used is that a finite sum on the extended reals may be regrouped, which needs no finiteness.  At the point
  `t` that writes back (`t % 8 = 7`), entry `(p, q)` of the buffer is therefore `out2` of the four staged arrays
  at row `2048·(t/32) + p` and column `1024·(t/8%4) + q`.
-/
import proofs.«140877_j86011015070181_2_alg».proof.Proof.Gen.KernelIdeal.Frame
import proofs.«140877_j86011015070181_2_alg».proof.Proof.Pieces
import proofs.«140877_j86011015070181_2_alg».proof.Proof.Payload
import proofs.«140877_j86011015070181_2_alg».proof.Proof.Blocks
import Idealize.ShloMosaic.Lib.Pipeline.Value

noncomputable section

namespace Cert.Lora.Fold

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ) (c : Dev nD)

/-- The four staged arrays as the grid finds them: the flattened activation, the transposed weight, the down-projected
    activation, the transposed up-projection. -/
def X : S16384x4096.Idx → EReal := V m c main_v2
def Wt : S4096x4096.Idx → EReal := V m c main_v4
def Lw : S16384x8.Idx → EReal := V m c main_v7
def Bt : S8x4096.Idx → EReal := V m c main_v6

theorem iblk0_apply (t : Fin cfg0.N) (p : Fin 2048) (q : Fin 512) :
    (iblk m c 0 t : Vec Ideal S2048x512 .bf16) (ix2 p q) = rd2 (X m c) ((t.val / 32) * 2048 + p.val) ((t.val % 8) * 512 + q.val) :=
  Blocks.read_blk0 c (V m c main_v2) t p q
theorem iblk1_apply (t : Fin cfg0.N) (p : Fin 512) (q : Fin 1024) :
    (iblk m c 1 t : Vec Ideal S512x1024 .bf16) (ix2 p q) = rd2 (Wt m c) ((t.val % 8) * 512 + p.val) ((t.val / 8 % 4) * 1024 + q.val) :=
  Blocks.read_blk1 c (V m c main_v4) t p q
theorem iblk2_apply (t : Fin cfg0.N) (p : Fin 2048) (q : Fin 8) :
    (iblk m c 2 t : Vec Ideal S2048x8 .bf16) (ix2 p q) = rd2 (Lw m c) ((t.val / 32) * 2048 + p.val) ((0) * 8 + q.val) :=
  Blocks.read_blk2 c (V m c main_v7) t p q
theorem iblk3_apply (t : Fin cfg0.N) (p : Fin 8) (q : Fin 1024) :
    (iblk m c 3 t : Vec Ideal S8x1024 .bf16) (ix2 p q) = rd2 (Bt m c) ((0) * 8 + p.val) ((t.val / 8 % 4) * 1024 + q.val) :=
  Blocks.read_blk3 c (V m c main_v6) t p q

/-- The block product point `n` adds, at entry `i` of the output block. -/
def addend (n : ℕ) (i : S2048x1024.Idx) : EReal :=
  ∑ k : Fin 512, rd2 (X m c) ((n / 32) * 2048 + (i 0).val) ((n % 8) * 512 + k.val)
    * rd2 (Wt m c) ((n % 8) * 512 + k.val) ((n / 8 % 4) * 1024 + (i 1).val)

/-- The low-rank term point `n` adds (at the last contraction step), at entry `i`. -/
def lowrank (n : ℕ) (i : S2048x1024.Idx) : EReal :=
  (∑ k : Fin 8, rd2 (Lw m c) ((n / 32) * 2048 + (i 0).val) ((0) * 8 + k.val)
    * rd2 (Bt m c) ((0) * 8 + k.val) ((n / 8 % 4) * 1024 + (i 1).val)) * two

/-- One accumulation step at point `t`, at an entry: the accumulator plus the point's block product. -/
theorem step2_apply (t : Fin cfg0.N) (acc : Vec Ideal S2048x1024 .f32) (i : S2048x1024.Idx) :
    k0_pay2 (F := Ideal) acc (iblk m c 0 t) (iblk m c 1 t) i = acc i + addend m c t.val i := by
  obtain ⟨p, q, rfl⟩ : ∃ (p : Fin 2048) (q : Fin 1024), i = ix2 p q := ⟨i 0, i 1, eq_ix2 i⟩
  refine (Pay.pay2_apply acc (iblk m c 0 t) (iblk m c 1 t) p q).trans ?_
  refine congrArg (acc (ix2 p q) + ·) ?_
  unfold addend
  refine Finset.sum_congr rfl fun k _ => ?_
  rw [iblk0_apply m c t p k, iblk1_apply m c t k q]

/-- The low-rank term at point `t`, at an entry. -/
theorem step3_apply (t : Fin cfg0.N) (acc : Vec Ideal S2048x1024 .f32) (i : S2048x1024.Idx) :
    k0_pay3 (F := Ideal) (iblk m c 2 t) (iblk m c 3 t) acc i = acc i + lowrank m c t.val i := by
  obtain ⟨p, q, rfl⟩ : ∃ (p : Fin 2048) (q : Fin 1024), i = ix2 p q := ⟨i 0, i 1, eq_ix2 i⟩
  refine (Pay.pay3_apply (iblk m c 2 t) (iblk m c 3 t) acc p q).trans ?_
  refine congrArg (acc (ix2 p q) + ·) ?_
  unfold lowrank
  refine congrArg (· * two) ?_
  refine Finset.sum_congr rfl fun k _ => ?_
  rw [iblk2_apply m c t p k, iblk3_apply m c t k q]

/-- What the buffer is reset to at the first point of a run: the step on the zero block. -/
def reset (n : ℕ) (h : n < cfg0.N) : Vec Ideal S2048x1024 .f32 :=
  k0_pay2 (k0_pay1 (F := Ideal)) (iblk m c 0 ⟨n, h⟩) (iblk m c 1 ⟨n, h⟩)

/-- What a later point of the run makes of the buffer: the step, and at the last contraction step the low-rank term. -/
def step (n : ℕ) (h : n < cfg0.N) (acc : Vec Ideal S2048x1024 .f32) : Vec Ideal S2048x1024 .f32 :=
  if n % 8 = 7 then k0_pay3 (iblk m c 2 ⟨n, h⟩) (iblk m c 3 ⟨n, h⟩) (k0_pay2 acc (iblk m c 0 ⟨n, h⟩) (iblk m c 1 ⟨n, h⟩))
  else k0_pay2 acc (iblk m c 0 ⟨n, h⟩) (iblk m c 1 ⟨n, h⟩)

theorem step_last (n : ℕ) (h : n < cfg0.N) (acc : Vec Ideal S2048x1024 .f32) (h7 : n % 8 = 7) :
    step m c n h acc = k0_pay3 (iblk m c 2 ⟨n, h⟩) (iblk m c 3 ⟨n, h⟩) (k0_pay2 acc (iblk m c 0 ⟨n, h⟩) (iblk m c 1 ⟨n, h⟩)) :=
  if_pos h7

theorem step_mid (n : ℕ) (h : n < cfg0.N) (acc : Vec Ideal S2048x1024 .f32) (h7 : ¬n % 8 = 7) :
    step m c n h acc = k0_pay2 acc (iblk m c 0 ⟨n, h⟩) (iblk m c 1 ⟨n, h⟩) :=
  if_neg h7

theorem outs_reset (n : ℕ) (h : n < cfg0.N) (h0 : n % 8 = 0) : outsAt0 m c n h = reset m c n h := by
  have h1 : ¬ n % 8 = 7 := by omega
  unfold reset
  exact (outsAt0_A m c ⟨n, h⟩ h0 h1).trans (Pieces.out_A ..)

theorem outs_step (n : ℕ) (h : n + 1 < cfg0.N) (hne : ¬(n + 1) % 8 = 0) :
    outsAt0 m c (n + 1) h = step m c (n + 1) h (outsAt0 m c n (Nat.lt_of_succ_lt h)) := by
  unfold step
  by_cases h7 : (n + 1) % 8 = 7
  · rw [if_pos h7]
    exact (outsAt0_C m c ⟨n + 1, h⟩ hne h7).trans (Pieces.out_C ..)
  · rw [if_neg h7]
    exact (outsAt0_B m c ⟨n + 1, h⟩ hne h7).trans (Pieces.out_B ..)

/-- After `j ≤ 6` steps of the run starting at point `8·r` the buffer holds the sum of the steps' block products. -/
theorem acc_partial (r : ℕ) : ∀ (j : ℕ), j ≤ 6 → ∀ (h : 8 * r + j < cfg0.N) (i : S2048x1024.Idx),
    Pipeline.accAt (reset m c) (step m c) (8 * r) j h i = 0 + ∑ s ∈ Finset.range (j + 1), addend m c (8 * r + s) i :=
  Pipeline.accAt_add_apply (reset m c) (step m c) (fun _ => (0 : EReal)) (addend m c) (8 * r) 6
    (fun h i => by
      unfold reset
      refine (step2_apply m c ⟨8 * r, h⟩ _ i).trans ?_
      exact congrArg (· + addend m c (8 * r) i) (Pay.pay1_apply i))
    (fun n h acc i hb he =>
      (congrFun (step_mid m c n h acc (by omega)) i).trans (step2_apply m c ⟨n, h⟩ acc i))

/-- The buffer at the point that writes it back, at entry `(p, q)`. -/
theorem outs_flush (t : Fin cfg0.N) (h7 : t.val % 8 = 7) (p : Fin 2048) (q : Fin 1024) :
    outsAt0 m c t.val t.isLt (ix2 p q)
      = (∑ d : Fin 4096, rd2 (X m c) ((t.val / 32) * 2048 + p.val) d.val * rd2 (Wt m c) d.val ((t.val / 8 % 4) * 1024 + q.val))
        + lowrank m c t.val (ix2 p q) := by
  have hN : cfg0.N = 256 := N_0
  have ht : t.val < cfg0.N := t.isLt
  have hb : 8 * (t.val / 8) + t.val % 8 < cfg0.N := by rw [Nat.div_add_mod]; exact ht
  have e : outsAt0 m c t.val t.isLt = Pipeline.accAt (reset m c) (step m c) (8 * (t.val / 8)) (t.val % 8) hb :=
    Pipeline.eq_accAt_of_mod (fun n h => outsAt0 m c n h) 8 (reset m c) (step m c) (outs_reset m c) (outs_step m c)
      (by decide) t.val t.isLt hb
  have key : ∀ (j : ℕ) (hj : j = 7) (h : 8 * (t.val / 8) + j < cfg0.N),
      Pipeline.accAt (reset m c) (step m c) (8 * (t.val / 8)) j h (ix2 p q)
        = (∑ d : Fin 4096, rd2 (X m c) ((t.val / 32) * 2048 + p.val) d.val * rd2 (Wt m c) d.val ((t.val / 8 % 4) * 1024 + q.val))
          + lowrank m c t.val (ix2 p q) := by
    intro j hj h
    subst hj
    have h6 : 8 * (t.val / 8) + 6 < cfg0.N := by omega
    have hs : Pipeline.accAt (reset m c) (step m c) (8 * (t.val / 8)) (6 + 1) h
        = step m c (8 * (t.val / 8) + (6 + 1)) h (Pipeline.accAt (reset m c) (step m c) (8 * (t.val / 8)) 6 h6) :=
      Pipeline.accAt_succ (reset m c) (step m c) (8 * (t.val / 8)) 6 h
    refine (congrFun hs (ix2 p q)).trans ?_
    refine (congrFun (step_last m c (8 * (t.val / 8) + (6 + 1)) h _ (by omega)) (ix2 p q)).trans ?_
    refine (step3_apply m c ⟨8 * (t.val / 8) + (6 + 1), h⟩ _ (ix2 p q)).trans ?_
    have hpt : 8 * (t.val / 8) + (6 + 1) = t.val := by omega
    refine congrArg₂ (· + ·) ?_ (by show lowrank m c (8 * (t.val / 8) + (6 + 1)) (ix2 p q) = _; rw [hpt])
    refine (step2_apply m c ⟨8 * (t.val / 8) + (6 + 1), h⟩ _ (ix2 p q)).trans ?_
    rw [acc_partial m c (t.val / 8) 6 (le_refl 6) h6 (ix2 p q), zero_add]
    show (∑ s ∈ Finset.range 7, addend m c (8 * (t.val / 8) + s) (ix2 p q)) + addend m c (8 * (t.val / 8) + 7) (ix2 p q) = _
    rw [← Finset.sum_range_succ (fun s => addend m c (8 * (t.val / 8) + s) (ix2 p q)) 7]
    refine Eq.trans ?_ (sum_runs 8 512 (fun d => rd2 (X m c) ((t.val / 32) * 2048 + p.val) d * rd2 (Wt m c) d ((t.val / 8 % 4) * 1024 + q.val)))
    refine Finset.sum_congr rfl fun s hs => ?_
    have hs' : s < 8 := Finset.mem_range.mp hs
    unfold addend
    refine Finset.sum_congr rfl fun k _ => ?_
    have e1 : (8 * (t.val / 8) + s) / 32 = t.val / 32 := by omega
    have e2 : (8 * (t.val / 8) + s) % 8 = s := by omega
    have e3 : (8 * (t.val / 8) + s) / 8 % 4 = t.val / 8 % 4 := by omega
    rw [e1, e2, e3]
  exact (congrFun e (ix2 p q)).trans (key _ h7 hb)

end Cert.Lora.Fold

end
-- ==== Proof.HostPrefix.lean ====
/-
  The four arrays the blocked product is fed, in terms of the program's arguments.

  Before the grid runs, the host flattens the activation's two leading axes (row `4096·bb + s` of the result is
  `x[bb, s, ·]`), contracts that with the down-projection over the feature axis, transposes the weight and the
  up-projection, and changes each result's float format — which on the extended reals is the identity.  So, entry
  by entry,

      X[4096·bb + s, d] = x[bb, s, d]      Wt[d, o] = w[o, d]      Bt[k, o] = b[o, k]
      Lw[4096·bb + s, k] = ∑ d, x[bb, s, d] · a[k, d] .

  A reshape keeps the row-major position; a transpose swaps the two coordinates; the host contraction over one axis
  is the finite sum of the products over that axis.
-/
import proofs.«140877_j86011015070181_2_alg».proof.Proof.Gen.KernelIdeal.Frame.Runs
import proofs.«140877_j86011015070181_2_alg».proof.Proof.Spec
import Idealize.ShloMosaic.Lib.Pipeline.Value
import Idealize.ShloMosaic.Lib.StableHlo.Run
import Idealize.ShloMosaic.Lib.Tactic

noncomputable section

namespace Cert.Lora.Host

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-- The program's four arguments on core `c`, as functions of the index. -/
abbrev argX (c : Dev nD) : S4x4096x4096.Idx → EReal := m ((c : Thread nD τ).loc main_arg0)
abbrev argW (c : Dev nD) : S4096x4096.Idx → EReal := m ((c : Thread nD τ).loc main_arg1)
abbrev argA (c : Dev nD) : S8x4096.Idx → EReal := m ((c : Thread nD τ).loc main_arg2)
abbrev argB (c : Dev nD) : S4096x8.Idx → EReal := m ((c : Thread nD τ).loc main_arg3)

/-- The flattened activation as the grid finds it. -/
theorem V2_eq (c : Dev nD) : @Eq (S16384x4096.Idx → EReal) (V m c main_v2)
    (truncf (F := Ideal) .bf16 (shapeCast S16384x4096 (m ((c : Thread nD τ).loc main_arg0)) shapeCasts_S4x4096x4096_S16384x4096) bitsLt_bf16_f32) := by
  show StableHlo.after hostOps0 (fun b => m (c, b)) (Proc.devRef .tc main_v2) = _
  after_results; try rfl

/-- The transposed weight as the grid finds it. -/
theorem V4_eq (c : Dev nD) : @Eq (S4096x4096.Idx → EReal) (V m c main_v4)
    (truncf (F := Ideal) .bf16 (transpose S4096x4096 [1, 0] (m ((c : Thread nD τ).loc main_arg1)) transposes_S4096x4096_S4096x4096_1_0) bitsLt_bf16_f32) := by
  show StableHlo.after hostOps0 (fun b => m (c, b)) (Proc.devRef .tc main_v4) = _
  after_results; try rfl

/-- The transposed up-projection as the grid finds it. -/
theorem V6_eq (c : Dev nD) : @Eq (S8x4096.Idx → EReal) (V m c main_v6)
    (truncf (F := Ideal) .bf16 (transpose S8x4096 [1, 0] (m ((c : Thread nD τ).loc main_arg3)) transposes_S4096x8_S8x4096_1_0) bitsLt_bf16_f32) := by
  show StableHlo.after hostOps0 (fun b => m (c, b)) (Proc.devRef .tc main_v6) = _
  after_results; try rfl

/-- The down-projected activation as the grid finds it. -/
theorem V7_eq (c : Dev nD) : @Eq (S16384x8.Idx → EReal) (V m c main_v7)
    (truncf (F := Ideal) .bf16 (Host.dotGeneral (F := Ideal) (φ₁ := .f32) (φ₂ := .f32) dot_S16384x4096_S8x4096_S16384x8_1_1_0_0_n_n none
      (shapeCast S16384x4096 (argX m c) shapeCasts_S4x4096x4096_S16384x4096)
      (argA m c)) bitsLt_bf16_f32) := by
  show StableHlo.after hostOps0 (fun b => m (c, b)) (Proc.devRef .tc main_v7) = _
  after_results; try rfl

/-- The reshape at row `4096·bb + s`, column `d`: the activation at `(bb, s, d)` (the same row-major position). -/
theorem flat_apply (x : S4x4096x4096.Idx → EReal) (bb : Fin 4) (s d : Fin 4096) :
    shapeCast S16384x4096 x shapeCasts_S4x4096x4096_S16384x4096 (ix2 (flatRow bb s) d) = x (ix3 bb s d) :=
  shapeCast_apply x shapeCasts_S4x4096x4096_S16384x4096 (ix2 (flatRow bb s) d) (ix3 bb s d) (by
    rw [Shape.rowMajor_val_three, Shape.rowMajor_val_two]
    show (bb.val * 4096 + s.val) * 4096 + d.val = (4096 * bb.val + s.val) * 4096 + d.val
    omega)

theorem V2_apply (c : Dev nD) (bb : Fin 4) (s d : Fin 4096) :
    (V m c main_v2 : S16384x4096.Idx → EReal) (ix2 (flatRow bb s) d) = argX m c (ix3 bb s d) := by
  rw [V2_eq]
  exact flat_apply _ bb s d

theorem V4_apply (c : Dev nD) (d o : Fin 4096) :
    (V m c main_v4 : S4096x4096.Idx → EReal) (ix2 d o) = argW m c (ix2 o d) := by
  rw [V4_eq]
  exact transpose_apply [1, 0] _ transposes_S4096x4096_S4096x4096_1_0 (ix2 d o) (ix2 o d) (fun b => by
    match b with
    | ⟨0, _⟩ => rfl
    | ⟨1, _⟩ => rfl)

theorem V6_apply (c : Dev nD) (k : Fin 8) (o : Fin 4096) :
    (V m c main_v6 : S8x4096.Idx → EReal) (ix2 k o) = argB m c (ix2 o k) := by
  rw [V6_eq]
  exact transpose_apply [1, 0] _ transposes_S4096x8_S8x4096_1_0 (ix2 k o) (ix2 o k) (fun b => by
    match b with
    | ⟨0, _⟩ => rfl
    | ⟨1, _⟩ => rfl)

theorem hd_lhs0 (i : S16384x8.Idx) (q : dot_S16384x4096_S8x4096_S16384x8_1_1_0_0_n_n.contr.Idx) : (dot_S16384x4096_S8x4096_S16384x8_1_1_0_0_n_n.lhsIdx i q 0).val = (i 0).val := by
  unfold DotDims.lhsIdx
  rw [dif_neg (show ¬(0 : Fin S16384x4096.rank) ∈ dot_S16384x4096_S8x4096_S16384x8_1_1_0_0_n_n.lhsBatch by decide), dif_pos (show (0 : Fin S16384x4096.rank) ∈ dot_S16384x4096_S8x4096_S16384x8_1_1_0_0_n_n.lhsNonContracting by decide)]
  rfl
theorem hd_lhs1 (i : S16384x8.Idx) (q : dot_S16384x4096_S8x4096_S16384x8_1_1_0_0_n_n.contr.Idx) : (dot_S16384x4096_S8x4096_S16384x8_1_1_0_0_n_n.lhsIdx i q 1).val = (q ⟨0, by decide⟩).val :=
  dot_S16384x4096_S8x4096_S16384x8_1_1_0_0_n_n.lhsIdx_val_of_single rfl i q
theorem hd_rhs0 (i : S16384x8.Idx) (q : dot_S16384x4096_S8x4096_S16384x8_1_1_0_0_n_n.contr.Idx) : (dot_S16384x4096_S8x4096_S16384x8_1_1_0_0_n_n.rhsIdx i q 0).val = (i 1).val := by
  unfold DotDims.rhsIdx
  rw [dif_neg (show ¬(0 : Fin S8x4096.rank) ∈ dot_S16384x4096_S8x4096_S16384x8_1_1_0_0_n_n.rhsBatch by decide), dif_pos (show (0 : Fin S8x4096.rank) ∈ dot_S16384x4096_S8x4096_S16384x8_1_1_0_0_n_n.rhsNonContracting by decide)]
  rfl
theorem hd_rhs1 (i : S16384x8.Idx) (q : dot_S16384x4096_S8x4096_S16384x8_1_1_0_0_n_n.contr.Idx) : (dot_S16384x4096_S8x4096_S16384x8_1_1_0_0_n_n.rhsIdx i q 1).val = (q ⟨0, by decide⟩).val :=
  dot_S16384x4096_S8x4096_S16384x8_1_1_0_0_n_n.rhsIdx_val_of_single rfl i q

/-- The host's down-projection at `(r, k)`: the sum over the feature axis. -/
theorem hostdot_apply (l : FVec Ideal S16384x4096 .f32) (r : FVec Ideal S8x4096 .f32) (row : Fin 16384) (k : Fin 8) :
    Host.dotGeneral (F := Ideal) dot_S16384x4096_S8x4096_S16384x8_1_1_0_0_n_n none l r (ix2 row k) = ∑ d : Fin 4096, l (ix2 row d) * r (ix2 k d) := by
  simp only [Host.dotGeneral]
  rw [Ideal.dotGeneral_apply, ← Equiv.sum_comp (contrEquiv1 dot_S16384x4096_S8x4096_S16384x8_1_1_0_0_n_n 4096 rfl rfl).symm]
  refine Finset.sum_congr rfl fun d _ => ?_
  have hd := contrEquiv1_symm_val dot_S16384x4096_S8x4096_S16384x8_1_1_0_0_n_n 4096 rfl rfl d
  have el : dot_S16384x4096_S8x4096_S16384x8_1_1_0_0_n_n.lhsIdx (ix2 row k) ((contrEquiv1 dot_S16384x4096_S8x4096_S16384x8_1_1_0_0_n_n 4096 rfl rfl).symm d) = ix2 row d := funext fun a => Fin.ext (by
    match a with
    | ⟨0, _⟩ => exact hd_lhs0 _ _
    | ⟨1, _⟩ => exact (hd_lhs1 _ _).trans hd)
  have er : dot_S16384x4096_S8x4096_S16384x8_1_1_0_0_n_n.rhsIdx (ix2 row k) ((contrEquiv1 dot_S16384x4096_S8x4096_S16384x8_1_1_0_0_n_n 4096 rfl rfl).symm d) = ix2 k d := funext fun a => Fin.ext (by
    match a with
    | ⟨0, _⟩ => exact hd_rhs0 _ _
    | ⟨1, _⟩ => exact (hd_rhs1 _ _).trans hd)
  rw [el, er]

theorem V7_apply (c : Dev nD) (bb : Fin 4) (s : Fin 4096) (k : Fin 8) :
    (V m c main_v7 : S16384x8.Idx → EReal) (ix2 (flatRow bb s) k)
      = ∑ d : Fin 4096, argX m c (ix3 bb s d) * argA m c (ix2 k d) := by
  rw [V7_eq]
  refine (hostdot_apply _ _ (flatRow bb s) k).trans ?_
  refine Finset.sum_congr rfl fun d _ => ?_
  rw [flat_apply]

end Cert.Lora.Host

end
-- ==== Proof.Final.lean ====
/-
  The kernel program's result array, as the specification of its arguments.

  The output's blocks tile the 16384×4096 array, one block per (row-block, column-block), each written back once, at
  the last contraction step, holding the whole contraction for its entries (the fold of the accumulation).  So the
  array the grid leaves is `out2` of the four staged arrays at every entry.  After the grid the host splits the row
  axis back into (bb, s) — the same row-major position — and the four staged arrays are the flattening, the
  transposes and the down-projection of the arguments; together: the result at (bb, s, o) is the layer's output
  `G x w a b` at (bb, s, o).
-/
import proofs.«140877_j86011015070181_2_alg».proof.Proof.Gen.KernelIdeal.Frame
import proofs.«140877_j86011015070181_2_alg».proof.Proof.Fold
import proofs.«140877_j86011015070181_2_alg».proof.Proof.HostPrefix
import Idealize.ShloMosaic.Lib.Pipeline.Value
import Idealize.ShloMosaic.Lib.StableHlo.Run
import Idealize.ShloMosaic.Lib.Tactic

noncomputable section

namespace Cert.Lora.Final

open Cert.KernelIdeal Cert.KernelIdeal.Gen Idealize.ShloMosaic Idealize.ShloMosaic.TcCoe Idealize.SL.Sem
open Idealize.ShloMosaic.ValueIdx Cert.Lora Cert.Lora.Fold Cert.Lora.Host
open Idealize.ShloMosaic.Pipeline (Dat)

variable (m : (ℓ : Loc nD τ sig) → Buf (Elt Ideal) ℓ) (ρ : Dev nD → PrngReg)

/-- The two-dimensional array the grid leaves. -/
def R2 (c : Dev nD) : S16384x4096.Idx → EReal :=
  fun i => out2 (X m c) (Wt m c) (Lw m c) (Bt m c) (i 0) (i 1)

/-- Where the output's block sits at point `t`: block index `(t / 32, t / 8 % 4)`. -/
theorem idx4 : ∀ t : Fin cfg0.N, win0_4.index t 0 = t.val / 32 ∧ win0_4.index t 1 = t.val / 8 % 4 :=
  (by decide +kernel : ∀ t : Fin grid0.N, win0_4.index t 0 = t.val / 32 ∧ win0_4.index t 1 = t.val / 8 % 4)

/-- The output's block at point `t`, read from array contents `f` at `(p, q)`. -/
theorem read_blk4 (c : Dev nD) (f : S16384x4096.Idx → EReal) (t : Fin cfg0.N) (p : Fin 2048) (q : Fin 1024)
    (hr : t.val / 32 * 2048 + p.val < 16384) (hc : t.val / 8 % 4 * 1024 + q.val < 4096) :
    ((cfg0.win 4).blk t).view.read (Elt Ideal) (f : Buf (Elt Ideal) ((c : Thread nD τ).loc main_v8)) (ix2 p q)
      = f (ix2 ⟨t.val / 32 * 2048 + p.val, hr⟩ ⟨t.val / 8 % 4 * 1024 + q.val, hc⟩) := by
  have hi := idx4 t
  rw [View.read_apply]
  show f _ = f _
  congr 1
  funext a
  apply Fin.ext
  match a with
  | ⟨0, _⟩ => show win0_4.index t 0 * 2048 + 1 * p.val = t.val / 32 * 2048 + p.val; rw [hi.1]; omega
  | ⟨1, _⟩ => show win0_4.index t 1 * 1024 + 1 * q.val = t.val / 8 % 4 * 1024 + q.val; rw [hi.2]; omega

/-- What a writing-back point writes is its block of `R2`. -/
theorem flushed_eq (c : Dev nD) (t : Fin cfg0.N) (hf : (cfg0.win 4).flush t = true) :
    (dats m 0 c).flushed 4 t = ((cfg0.win 4).blk t).view.read (Elt Ideal) (R2 m c : Buf (Elt Ideal) ((c : Thread nD τ).loc main_v8)) := by
  have h7 : t.val % 8 = 7 := (flush0_4 t).mp hf
  have hN : t.val < 256 := lt_of_lt_of_eq t.isLt (show cfg0.N = 256 from N_0)
  funext y
  obtain ⟨p, q, rfl⟩ : ∃ (p : Fin 2048) (q : Fin 1024), y = ix2 p q := ⟨y 0, y 1, eq_ix2 y⟩
  have hp := p.isLt
  have hq := q.isLt
  have hr : t.val / 32 * 2048 + p.val < 16384 := by omega
  have hc : t.val / 8 % 4 * 1024 + q.val < 4096 := by omega
  rw [read_blk4 c (R2 m c) t p q hr hc]
  show (cfg0.win 4).cut (grid0.coords t) ((dats m 0 c).after 4 t) (ix2 p q) = _
  rw [after0_4]
  show outsAt0 m c t.val t.isLt (ix2 p q) = _
  rw [outs_flush m c t h7 p q]
  unfold R2 out2 lowrank
  refine congrArg₂ (· + ·) (Finset.sum_congr rfl fun d _ => ?_) (congrArg (· * two) (Finset.sum_congr rfl fun k _ => ?_))
  · rw [rd2_of_lt (X m c) _ _ hr d.isLt, rd2_of_lt (Wt m c) _ _ d.isLt hc]
  · have hk := k.isLt
    rw [rd2_of_lt (Lw m c) _ _ hr (by omega), rd2_of_lt (Bt m c) _ _ (by omega) hc]
    have e8 : (⟨0 * 8 + k.val, by omega⟩ : Fin 8) = k := Fin.ext (by show 0 * 8 + k.val = k.val; omega)
    simp only [e8]

/-- Every entry of the array lies in the block of a point that writes back. -/
theorem cover (i : S16384x4096.Idx) : ∃ t : Fin cfg0.N, (cfg0.win 4).flush t = true ∧ i ∈ ((cfg0.win 4).blk t).view.set := by
  have h0 : (i 0 : Nat) < 16384 := (i 0).isLt
  have h1 : (i 1 : Nat) < 4096 := (i 1).isLt
  have hN : cfg0.N = 256 := N_0
  obtain ⟨t, ht⟩ : ∃ t : Fin cfg0.N, t.val = (i 0).val / 2048 * 32 + (i 1).val / 1024 * 8 + 7 :=
    ⟨⟨(i 0).val / 2048 * 32 + (i 1).val / 1024 * 8 + 7, by rw [hN]; omega⟩, rfl⟩
  have hi := idx4 t
  refine ⟨t, (flush0_4 t).mpr (by omega), ?_⟩
  show i ∈ ((View.whole main_v8).slice (win0_4.rect t)).set
  rw [View.set_slice_whole, Rect.mem_set_unit]
  intro a
  match a with
  | ⟨0, _⟩ =>
    show win0_4.index t 0 * 2048 ≤ (i 0 : Nat) ∧ (i 0 : Nat) < win0_4.index t 0 * 2048 + 2048
    rw [hi.1]; omega
  | ⟨1, _⟩ =>
    show win0_4.index t 1 * 1024 ≤ (i 1 : Nat) ∧ (i 1 : Nat) < win0_4.index t 1 * 1024 + 1024
    rw [hi.2]; omega

/-- So the array the grid leaves is `R2`. -/
theorem final (c : Dev nD) : (dats m 0 c).arrAt 4 cfg0.N = (R2 m c : Buf (Elt Ideal) ((c : Thread nD τ).loc main_v8)) :=
  (dats m 0 c).arrAt_eq_of_cover 4 (R2 m c) (flushed_eq m c) cover

/-- The result: `R2` with its row axis split back into two. -/
def R3 (c : Dev nD) : S4x4096x4096.Idx → EReal :=
  shapeCast S4x4096x4096 (R2 m c) shapeCasts_S16384x4096_S4x4096x4096

/-- The host line after the grid leaves the result buffer at `R3`. -/
theorem tail_eq (c : Dev nD) :
    Pipeline.afterTail₀ cfgs (dats m) 0 (V0 m) [hostOps1] c main_v9 = (R3 m c : Buf (Elt Ideal) ((c : Thread nD τ).loc main_v9)) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = (R2 m c : Buf (Elt Ideal) ((c : Thread nD τ).loc main_v8)) :=
    (Pipeline.withArrays_arr spec0 launch0.win.arr_inj c _ _ 4).trans (final m c)
  rw [hw]
  rfl

/-- The result is the specification of the arguments. -/
theorem R3_eq_G (c : Dev nD) : R3 m c = G (argX m c) (argW m c) (argA m c) (argB m c) := by
  funext i
  obtain ⟨bb, s, o, rfl⟩ : ∃ (bb : Fin 4) (s : Fin 4096) (o : Fin 4096), i = ix3 bb s o := ⟨i 0, i 1, i 2, eq_ix3 i⟩
  rw [G_ix3]
  unfold R3
  refine (shapeCast_apply (R2 m c) shapeCasts_S16384x4096_S4x4096x4096 (ix3 bb s o) (ix2 (flatRow bb s) o) (by
    rw [Shape.rowMajor_val_three, Shape.rowMajor_val_two]
    show (4096 * bb.val + s.val) * 4096 + o.val = (bb.val * 4096 + s.val) * 4096 + o.val
    omega)).trans ?_
  show out2 (X m c) (Wt m c) (Lw m c) (Bt m c) (flatRow bb s) o = _
  exact out2_eq_Gat (argX m c) (argW m c) (argA m c) (argB m c) (X m c) (Wt m c) (Lw m c) (Bt m c)
    (fun bb s d => V2_apply m c bb s d) (fun d o => V4_apply m c d o) (fun bb s k => V7_apply m c bb s k)
    (fun k o => V6_apply m c k o) bb s o

/-- The kernel program's run, read: the result buffer ends at the specification of the arguments, which end unchanged. -/
theorem run : θ_run defs (onTc (τ := τ) (main (F := Ideal))) ⟨m, fun _ => 0, ρ⟩ fun r => ∀ c : Dev nD,
      r.2.mem ((c.tc : Thread nD τ).loc main_v9) = G (argX m c) (argW m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans ((tail_eq m c).trans (R3_eq_G m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Lora.Final

end
-- ==== Proof.lean ====
/-
  A linear layer with a rank-8 update, computed block by block on a grid, against its plain definition.

  The reference computes, for an activation `x[b, s, d]`, a weight `w[o, d]`, a down-projection `a[k, d]` and an
  up-projection `b[o, k]`,

      y[b, s, o] = (∑ d, x[b,s,d] · w[o,d]) + (∑ k, (∑ d, x[b,s,d] · a[k,d]) · b[o,k]) · 2

  by three whole contractions.  The kernel flattens (b, s) to one row axis, takes the down-projection once on the
  host, and runs a grid of 8 × 4 × 8 points: for each of 8 × 4 output blocks of 2048 × 1024 entries it walks the 4096
  contracted positions in 8 runs of 512, resetting the block at the first run, adding one block product per run, and
  adding twice the rank-8 product at the last run, after which the block is written back; the host then restores the
  (b, s) axes.  On the extended reals a change of float format is the identity and a sum may be regrouped freely, so the
  eight partial products of a block add up to the whole contraction and both programs compute `y` (`Cert.Lora.G`):
  the two results are equal entry by entry, for every input (finiteness of the inputs is never used).

  The modules: `LibSumRuns` (regrouping a sum into runs; an array read at natural coordinates), `Spec` (the function
  `G` and its two-dimensional form), `RefIsG` (the
  reference read at an index), `Payload` (the body's stored values at an entry), `Pieces` (what each control case
  leaves in the output buffer), `Blocks` (where each operand's block sits at a grid point), `HostPrefix` (the staged
  arrays in terms of the arguments), `Fold` (the buffer at the write-back is the whole contraction), `Final` (the
  result array, the host tail, the kernel program's run).  The three frame claims are the generated frame
  certificates and the reference's generated run; the idealization rewrote nothing, so `preserves` is trivial.
-/
import proofs.«140877_j86011015070181_2_alg».proof.Defs
import proofs.«140877_j86011015070181_2_alg».proof.Proof.Gen.Kernel
import proofs.«140877_j86011015070181_2_alg».proof.Proof.Gen.Kernel.Frame
import proofs.«140877_j86011015070181_2_alg».proof.Proof.Gen.KernelIdeal
import proofs.«140877_j86011015070181_2_alg».proof.Proof.Gen.KernelIdeal.Frame
import proofs.«140877_j86011015070181_2_alg».proof.Proof.Gen.ReferenceIdeal
import proofs.«140877_j86011015070181_2_alg».proof.Proof.Gen.Pre_finite_inputs
import proofs.«140877_j86011015070181_2_alg».proof.Proof.Gen.ReferenceIdeal.Run
import proofs.«140877_j86011015070181_2_alg».proof.Proof.Gen.ReferenceIdeal.Read
import proofs.«140877_j86011015070181_2_alg».proof.Proof.RefIsG
import proofs.«140877_j86011015070181_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with `G` of arguments that agree. -/
theorem algebraic : Cert.algebraic_KernelIdeal_ReferenceIdeal := by
  intro m ρ m' ρ' _ hagree
  refine ⟨fun c => Cert.Lora.G (Cert.Lora.Host.argX m c) (Cert.Lora.Host.argW m c) (Cert.Lora.Host.argA m c)
    (Cert.Lora.Host.argB m c), Cert.Lora.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Lora.Ref.ref_eq_G, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
